-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S16x341 : Shape := ⟨2, ![16, 341]⟩
abbrev S16x16x16x1 : Shape := ⟨4, ![16, 16, 16, 1]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S16x341 : S_.BroadcastsInDim S16x341 (![] : Fin 0 → Fin S16x341.rank)
  reducesTo_S16x341_S_d0_1 : S16x341.ReducesTo [0, 1] S_
  bcast_S_S16x16x16x1 : S_.BroadcastsInDim S16x16x16x1 (![] : Fin 0 → Fin S16x16x16x1.rank)
  reducesTo_S16x16x16x1_S_d0_1_2_3 : S16x16x16x1.ReducesTo [0, 1, 2, 3] S_

variable [Facts]

def fn_part1 {F : FTy → Type} [FloatOps F] (main_arg4 : FVec F S16x16x16x1 .f32) (main_v13 : IVec S_ 1) (main_v16 : IVec S16x341 1) : IVec S_ 1 :=
  let main_c_5 : IVec S_ 1 := constantI S_ 1 1#1
  let main_v17 : IVec S_ 1 := (fun x v => Host.reduce IntOp.andi x v reducesTo_S16x341_S_d0_1 h_S_) main_v16 main_c_5
  let main_v18 : IVec S_ 1 := andi main_v13 main_v17
  let main_v19 : FVec F S16x16x16x1 .f32 := Host.absf main_arg4
  let main_cst_6 : FVec F S_ .f32 := constant S_ .f32 0x7F800000#32
  let main_v20 : FVec F S16x16x16x1 .f32 := broadcastInDim S16x16x16x1 ![] bcast_S_S16x16x16x1 main_cst_6
  let main_v21 : IVec S16x16x16x1 1 := cmpf .olt main_v19 main_v20
  let main_c_7 : IVec S_ 1 := constantI S_ 1 1#1
  let main_v22 : IVec S_ 1 := (fun x v => Host.reduce IntOp.andi x v reducesTo_S16x16x16x1_S_d0_1_2_3 h_S_) main_v21 main_c_7
  let main_v23 : IVec S_ 1 := andi main_v18 main_v22
  main_v23

def fn {F : FTy → Type} [FloatOps F] (main_arg0 : FVec F S8x4096x1024 .f32) (main_arg1 : FVec F S16x341 .f32) (main_arg2 : FVec F S16x341 .f32) (main_arg3 : FVec F S16x341 .f32) (main_arg4 : FVec F S16x16x16x1 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S16x341 .f32 := Host.absf main_arg1
  let main_cst_0 : FVec F S_ .f32 := constant S_ .f32 0x7F800000#32
  let main_v5 : FVec F S16x341 .f32 := broadcastInDim S16x341 ![] bcast_S_S16x341 main_cst_0
  let main_v6 : IVec S16x341 1 := cmpf .olt main_v4 main_v5
  let main_c_1 : IVec S_ 1 := constantI S_ 1 1#1
  let main_v7 : IVec S_ 1 := (fun x v => Host.reduce IntOp.andi x v reducesTo_S16x341_S_d0_1 h_S_) main_v6 main_c_1
  let main_v8 : IVec S_ 1 := andi main_v3 main_v7
  let main_v9 : FVec F S16x341 .f32 := Host.absf main_arg2
  let main_cst_2 : FVec F S_ .f32 := constant S_ .f32 0x7F800000#32
  let main_v10 : FVec F S16x341 .f32 := broadcastInDim S16x341 ![] bcast_S_S16x341 main_cst_2
  let main_v11 : IVec S16x341 1 := cmpf .olt main_v9 main_v10
  let main_c_3 : IVec S_ 1 := constantI S_ 1 1#1
  let main_v12 : IVec S_ 1 := (fun x v => Host.reduce IntOp.andi x v reducesTo_S16x341_S_d0_1 h_S_) main_v11 main_c_3
  let main_v13 : IVec S_ 1 := andi main_v8 main_v12
  let main_v14 : FVec F S16x341 .f32 := Host.absf main_arg3
  let main_cst_4 : FVec F S_ .f32 := constant S_ .f32 0x7F800000#32
  let main_v15 : FVec F S16x341 .f32 := broadcastInDim S16x341 ![] bcast_S_S16x341 main_cst_4
  let main_v16 : IVec S16x341 1 := cmpf .olt main_v14 main_v15
  fn_part1 (F := F) main_arg4 main_v13 main_v16
-- ==== Kernel.lean ====
abbrev S8x4096x1024 : Shape := ⟨3, ![8, 4096, 1024]⟩
abbrev S16x341 : Shape := ⟨2, ![16, 341]⟩
abbrev S16x16x16x1 : Shape := ⟨4, ![16, 16, 16, 1]⟩
abbrev S4096x1 : Shape := ⟨2, ![4096, 1]⟩
abbrev S8x341 : Shape := ⟨2, ![8, 341]⟩
abbrev S2048x1 : Shape := ⟨2, ![2048, 1]⟩
abbrev S1x2048x1024 : Shape := ⟨3, ![1, 2048, 1024]⟩
abbrev S2048x1024 : Shape := ⟨2, ![2048, 1024]⟩
abbrev S16x1x341 : Shape := ⟨3, ![16, 1, 341]⟩
abbrev S16x16x341 : Shape := ⟨3, ![16, 16, 341]⟩
abbrev S256x341 : Shape := ⟨2, ![256, 341]⟩
abbrev S1x16x341 : Shape := ⟨3, ![1, 16, 341]⟩
abbrev S8x1x341 : Shape := ⟨3, ![8, 1, 341]⟩
abbrev S8x256x341 : Shape := ⟨3, ![8, 256, 341]⟩
abbrev S2048x341 : Shape := ⟨2, ![2048, 341]⟩
abbrev S1x256x341 : Shape := ⟨3, ![1, 256, 341]⟩

abbrev nBuf : Space → Nat
  | .hbm => 7
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S16x341, .f32⟩
  | .hbm, ⟨2, _⟩ => ⟨S16x341, .f32⟩
  | .hbm, ⟨3, _⟩ => ⟨S16x341, .f32⟩
  | .hbm, ⟨4, _⟩ => ⟨S16x16x16x1, .f32⟩
  | .hbm, ⟨5, _⟩ => ⟨S4096x1, .f32⟩
  | .hbm, ⟨6, _⟩ => ⟨S8x4096x1024, .f32⟩
  | .local _ .vmem, ⟨0, _⟩ => ⟨S8x341, .f32⟩
  | .local _ .vmem, ⟨1, _⟩ => ⟨S8x341, .f32⟩
  | .local _ .vmem, ⟨2, _⟩ => ⟨S16x341, .f32⟩
  | .local _ .vmem, ⟨3, _⟩ => ⟨S16x341, .f32⟩
  | .local _ .vmem, ⟨4, _⟩ => ⟨S2048x1, .f32⟩
  | .local _ .vmem, ⟨5, _⟩ => ⟨S2048x1, .f32⟩
  | .local _ .vmem, ⟨6, _⟩ => ⟨S1x2048x1024, .f32⟩
  | .local _ .vmem, ⟨7, _⟩ => ⟨S1x2048x1024, .f32⟩
  | .local _ .vmem, ⟨8, _⟩ => ⟨S2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S8x341 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x341 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x341 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16x16x16x1_S4096x1 : S16x16x16x1.ShapeCasts S4096x1
  inb_S8x341_S8x341_0_0 : ∀ a, (![0, 0] : Fin 2 → Nat) a + S8x341.size a ≤ S8x341.size a
  h_S8x341 : 0 < S8x341.numel
  inb_S16x341_S16x341_0_0 : ∀ a, (![0, 0] : Fin 2 → Nat) a + S16x341.size a ≤ S16x341.size a
  h_S16x341 : 0 < S16x341.numel
  shapeCasts_S16x341_S16x1x341 : S16x341.ShapeCasts S16x1x341
  shapeCasts_S16x1x341_S16x1x341 : S16x1x341.ShapeCasts S16x1x341
  broadcasts_S16x1x341_S16x16x341 : S16x1x341.Broadcasts S16x16x341
  shapeCasts_S16x16x341_S256x341 : S16x16x341.ShapeCasts S256x341
  shapeCasts_S16x341_S1x16x341 : S16x341.ShapeCasts S1x16x341
  shapeCasts_S1x16x341_S1x16x341 : S1x16x341.ShapeCasts S1x16x341
  broadcasts_S1x16x341_S16x16x341 : S1x16x341.Broadcasts S16x16x341
  shapeCasts_S8x341_S8x1x341 : S8x341.ShapeCasts S8x1x341
  shapeCasts_S8x1x341_S8x1x341 : S8x1x341.ShapeCasts S8x1x341
  broadcasts_S8x1x341_S8x256x341 : S8x1x341.Broadcasts S8x256x341
  shapeCasts_S8x256x341_S2048x341 : S8x256x341.ShapeCasts S2048x341
  shapeCasts_S256x341_S1x256x341 : S256x341.ShapeCasts S1x256x341
  shapeCasts_S1x256x341_S1x256x341 : S1x256x341.ShapeCasts S1x256x341
  broadcasts_S1x256x341_S8x256x341 : S1x256x341.Broadcasts S8x256x341
  inb_S2048x1024_S2048x341_0_0 : ∀ a, (![0, 0] : Fin 2 → Nat) a + S2048x341.size a ≤ S2048x1024.size a
  h_S2048x341 : 0 < S2048x341.numel
  shapeCasts_S2048x341_S2048x341 : S2048x341.ShapeCasts S2048x341
  inb_S2048x1024_S2048x341_0_341 : ∀ a, (![0, 341] : Fin 2 → Nat) a + S2048x341.size a ≤ S2048x1024.size a
  inb_S2048x1024_S2048x341_0_682 : ∀ a, (![0, 682] : Fin 2 → Nat) a + S2048x341.size a ≤ S2048x1024.size a
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1_0_1023 : ∀ a, (![0, 1023] : Fin 2 → Nat) a + S2048x1.size a ≤ S2048x1024.size a
  inb_S2048x1024_S2048x1024_0_0 : ∀ a, (![0, 0] : Fin 2 → Nat) a + S2048x1024.size a ≤ S2048x1024.size a
  h_S2048x1024 : 0 < S2048x1024.numel
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x341.size a ≤ S16x341.size a
  hwx0_0 : ∀ i : grid0.Coords, EltTy.bits .f32 = 32 ∨ (Rect.block (s := S16x341) S8x341.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x341.size a ≤ S16x341.size a
  hwx0_1 : ∀ i : grid0.Coords, EltTy.bits .f32 = 32 ∨ (Rect.block (s := S16x341) S16x341.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x341.size a ≤ S16x341.size a
  hwx0_2 : ∀ i : grid0.Coords, EltTy.bits .f32 = 32 ∨ (Rect.block (s := S16x341) S16x341.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .f32 = 32 ∨ (Rect.block (s := S4096x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S8x4096x1024.size a
  hwx0_4 : ∀ i : grid0.Coords, EltTy.bits .f32 = 32 ∨ (Rect.block (s := S8x4096x1024) S1x2048x1024.size (cc0_transform_4 i) (hinb0_4 i)).WholeWords (EltTy.packing .f32)

variable [Facts₀]

abbrev win0_0 : Pipeline.Window sig grid0 :=
  Pipeline.Window.ofSpec (Memref.whole main_arg1) S8x341.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x341.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x341.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S16x341 : Shape := ⟨2, ![16, 341]⟩
abbrev S16x16x16x1 : Shape := ⟨4, ![16, 16, 16, 1]⟩
abbrev S16x1x1x341 : Shape := ⟨4, ![16, 1, 1, 341]⟩
abbrev S16x16x16x341 : Shape := ⟨4, ![16, 16, 16, 341]⟩
abbrev S1x16x1x341 : Shape := ⟨4, ![1, 16, 1, 341]⟩
abbrev S1x1x16x341 : Shape := ⟨4, ![1, 1, 16, 341]⟩
abbrev S16x16x16x1024 : Shape := ⟨4, ![16, 16, 16, 1024]⟩
abbrev S4096x1024 : Shape := ⟨2, ![4096, 1024]⟩
abbrev S1x4096x1024 : Shape := ⟨3, ![1, 4096, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x341, .f32⟩
  | .hbm, ⟨2, _⟩ => ⟨S16x341, .f32⟩
  | .hbm, ⟨3, _⟩ => ⟨S16x341, .f32⟩
  | .hbm, ⟨4, _⟩ => ⟨S16x16x16x1, .f32⟩
  | .hbm, ⟨5, _⟩ => ⟨S16x1x1x341, .f32⟩
  | .hbm, ⟨6, _⟩ => ⟨S16x16x16x341, .f32⟩
  | .hbm, ⟨7, _⟩ => ⟨S1x16x1x341, .f32⟩
  | .hbm, ⟨8, _⟩ => ⟨S16x16x16x341, .f32⟩
  | .hbm, ⟨9, _⟩ => ⟨S1x1x16x341, .f32⟩
  | .hbm, ⟨10, _⟩ => ⟨S16x16x16x341, .f32⟩
  | .hbm, ⟨11, _⟩ => ⟨S16x16x16x1024, .f32⟩
  | .hbm, ⟨12, _⟩ => ⟨S4096x1024, .f32⟩
  | .hbm, ⟨13, _⟩ => ⟨S1x4096x1024, .f32⟩
  | .hbm, ⟨14, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S16x341_S16x1x1x341_0_3 : S16x341.BroadcastsInDim S16x1x1x341 (![0, 3] : Fin 2 → Fin S16x1x1x341.rank)
  bcast_S16x1x1x341_S16x16x16x341_0_1_2_3 : S16x1x1x341.BroadcastsInDim S16x16x16x341 (![0, 1, 2, 3] : Fin 4 → Fin S16x16x16x341.rank)
  bcast_S16x341_S1x16x1x341_1_3 : S16x341.BroadcastsInDim S1x16x1x341 (![1, 3] : Fin 2 → Fin S1x16x1x341.rank)
  bcast_S1x16x1x341_S16x16x16x341_0_1_2_3 : S1x16x1x341.BroadcastsInDim S16x16x16x341 (![0, 1, 2, 3] : Fin 4 → Fin S16x16x16x341.rank)
  bcast_S16x341_S1x1x16x341_2_3 : S16x341.BroadcastsInDim S1x1x16x341 (![2, 3] : Fin 2 → Fin S1x1x16x341.rank)
  bcast_S1x1x16x341_S16x16x16x341_0_1_2_3 : S1x1x16x341.BroadcastsInDim S16x16x16x341 (![0, 1, 2, 3] : Fin 4 → Fin S16x16x16x341.rank)
  concatenates_S16x16x16x341_S16x16x16x341_S16x16x16x341_S16x16x16x1_S16x16x16x1024_d3 : Shape.Concatenates [S16x16x16x341, S16x16x16x341, S16x16x16x341, S16x16x16x1] S16x16x16x1024 3
  shapeCasts_S16x16x16x1024_S4096x1024 : S16x16x16x1024.ShapeCasts S4096x1024
  bcast_S4096x1024_S1x4096x1024_1_2 : S4096x1024.BroadcastsInDim S1x4096x1024 (![1, 2] : Fin 2 → Fin S1x4096x1024.rank)
  bcast_S1x4096x1024_S8x4096x1024_0_1_2 : S1x4096x1024.BroadcastsInDim S8x4096x1024 (![0, 1, 2] : Fin 3 → Fin S8x4096x1024.rank)

variable [Facts₀]

class Facts : Prop extends Facts₀ where

variable [Facts]
-- ==== Proof.LibLattice.lean ====
/-
  A small table spread over a flattened lattice, and a buffer filled band by band, read at an index.

  A kernel that repeats the rows of a table over a block of consecutive positions does it in three layout steps: it
  gives the table a unit middle or leading axis, broadcasts along that axis, and flattens the two leading axes into
  one. Each step is read here at an index written out by coordinates: the casts by "same row-major position" (row r
  of the flattened [a * b, c] array is the pair (r / b, r % b)), the broadcasts by "the operand at 0 on its unit
  axis". The second half reads a buffer of shape [a, n] that stores fill by bands of consecutive columns, all rows at
  once: a column lies in the band [o, o + w) or it does not, and the contents left by a list of such stores (last
  store first) are found by walking the list until the band that holds the column. All extents are free.
-/
import Idealize.ShloMosaic.Lib.ValueLayout
import Idealize.ShloMosaic.Lib.Pipeline.Value

namespace Cert.LibLattice

open Idealize.ShloMosaic Idealize.ShloMosaic.ValueIdx

variable {α : Type}

/-- An `[a, b]` array cast to `[a, 1, b]` reads, at `(p, u, q)`, the operand at `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, b, c]` array flattened to `[m, c]`, `m = a * b`, reads, at `(r, k)`, the operand at `(r / b, r % b, k)`. -/
theorem shapeCast_abc_mc_apply {a b c m : ℕ} (x : (⟨3, ![a, b, c]⟩ : Shape).Idx → α)
    (h : (⟨3, ![a, b, c]⟩ : Shape).ShapeCasts ⟨2, ![m, c]⟩) (hb : 0 < b) (hm : m = a * b) (r : Fin m) (k : Fin c) :
    shapeCast ⟨2, ![m, c]⟩ x h (ix2 r k)
      = x (ix3 (⟨r.val / b, (Nat.div_lt_iff_lt_mul hb).2 (hm ▸ r.isLt)⟩ : Fin a) (⟨r.val % b, Nat.mod_lt _ hb⟩ : Fin b) k) :=
  shapeCast_apply x h _ _ (by
    rw [Shape.rowMajor_val_three, Shape.rowMajor_val_two]
    show (r.val / b * b + r.val % b) * c + k.val = r.val * c + k.val
    rw [Nat.div_add_mod' r.val b])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(p, q, k)`, the operand's one matrix at `(q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

section Bands

variable {Val : EltTy → Type} {e : EltTy}

/-- The band of an `[a, n]` buffer that keeps every row and takes `w` consecutive columns from `o`: its own index
    `(p, k)` sits at `(p, o + k)` of the buffer. -/
theorem band_emb {a n w o : ℕ}
    (inb : ∀ ax, (![0, o] : Fin 2 → ℕ) ax + (![a, w] : Fin 2 → ℕ) ax ≤ (⟨2, ![a, n]⟩ : Shape).size ax)
    (p : Fin a) (k : Fin w) (hk : o + k.val < n) :
    (Rect.unit (s := ⟨2, ![a, n]⟩) ![0, o] ![a, w] inb).emb (ix2 p k) = ix2 p ⟨o + k.val, hk⟩ := by
  funext ax
  apply Fin.ext
  match ax with
  | ⟨0, _⟩ => show 0 + 1 * p.val = p.val; omega
  | ⟨1, _⟩ => show o + 1 * k.val = o + k.val; omega

/-- A column before the band's first or at or past its end is not in the band. -/
theorem not_mem_band {a n w o : ℕ}
    (inb : ∀ ax, (![0, o] : Fin 2 → ℕ) ax + (![a, w] : Fin 2 → ℕ) ax ≤ (⟨2, ![a, n]⟩ : Shape).size ax)
    (p : Fin a) (q : Fin n) (hq : q.val < o ∨ o + w ≤ q.val) :
    ix2 p q ∉ (Rect.unit (s := ⟨2, ![a, n]⟩) ![0, o] ![a, w] inb).set := by
  rw [Rect.mem_set_unit]
  intro hm
  have h1 := hm (⟨1, (by show 1 < 2; omega)⟩ : Fin (⟨2, ![a, n]⟩ : Shape).rank)
  change o ≤ q.val ∧ q.val < o + w at h1
  omega

variable [∀ e, Nonempty (Val e)]

/-- The last store filled a band that holds column `q`: the buffer holds its payload there. -/
theorem canon_band_hit {a n w o : ℕ}
    (inb : ∀ ax, (![0, o] : Fin 2 → ℕ) ax + (![a, w] : Fin 2 → ℕ) ax ≤ (⟨2, ![a, n]⟩ : Shape).size ax)
    (wv : (⟨2, ![a, w]⟩ : Shape).Idx → Val e) (L : List (View.Piece Val (⟨2, ![a, n]⟩ : Shape) e))
    (p : Fin a) (q : Fin n) (h1 : o ≤ q.val) (h2 : q.val < o + w) :
    View.canon ((⟨Rect.unit (s := ⟨2, ![a, n]⟩) ![0, o] ![a, w] inb, wv⟩ : View.Piece Val (⟨2, ![a, n]⟩ : Shape) e) :: L)
        (ix2 p q)
      = wv (ix2 p (⟨q.val - o, by omega⟩ : Fin w)) := by
  have e1 : ix2 p q = (Rect.unit (s := ⟨2, ![a, n]⟩) ![0, o] ![a, w] inb).emb (ix2 p (⟨q.val - o, by omega⟩ : Fin w)) := by
    rw [band_emb inb p (⟨q.val - o, by omega⟩ : Fin w) (by show o + (q.val - o) < n; have := q.isLt; omega)]
    exact congrArg (ix2 p) (Fin.ext (by show q.val = o + (q.val - o); omega))
  rw [e1]
  exact View.canon_cons_emb (Rect.unit (s := ⟨2, ![a, n]⟩) ![0, o] ![a, w] inb) wv L _

/-- The last store filled a band that does not hold column `q`: the buffer holds there what the earlier stores left. -/
theorem canon_band_miss {a n w o : ℕ}
    (inb : ∀ ax, (![0, o] : Fin 2 → ℕ) ax + (![a, w] : Fin 2 → ℕ) ax ≤ (⟨2, ![a, n]⟩ : Shape).size ax)
    (wv : (⟨2, ![a, w]⟩ : Shape).Idx → Val e) (L : List (View.Piece Val (⟨2, ![a, n]⟩ : Shape) e))
    (p : Fin a) (q : Fin n) (hq : q.val < o ∨ o + w ≤ q.val) :
    View.canon ((⟨Rect.unit (s := ⟨2, ![a, n]⟩) ![0, o] ![a, w] inb, wv⟩ : View.Piece Val (⟨2, ![a, n]⟩ : Shape) e) :: L)
        (ix2 p q)
      = View.canon L (ix2 p q) :=
  View.canon_cons_of_not_mem _ L (not_mem_band inb p q hq)

/-- A column inside the band is in the band. -/
theorem mem_band {a n w o : ℕ}
    (inb : ∀ ax, (![0, o] : Fin 2 → ℕ) ax + (![a, w] : Fin 2 → ℕ) ax ≤ (⟨2, ![a, n]⟩ : Shape).size ax)
    (p : Fin a) (q : Fin n) (h1 : o ≤ q.val) (h2 : q.val < o + w) :
    ix2 p q ∈ (Rect.unit (s := ⟨2, ![a, n]⟩) ![0, o] ![a, w] inb).set := by
  rw [Rect.mem_set_unit]
  intro ax
  match ax with
  | ⟨0, _⟩ => show 0 ≤ p.val ∧ p.val < 0 + a; have := p.isLt; omega
  | ⟨1, _⟩ => show o ≤ q.val ∧ q.val < o + w; omega

end Bands

end Cert.LibLattice
-- ==== Proof.KernelTile.lean ====
/-
  What one block of 2048 consecutive positions holds after the kernel body has built it.

  The body builds the block in a scratch buffer of 2048 rows and 1024 columns, band by band. Row r of the block is
  the lattice point (r / 256, r / 16 % 16, r % 16) relative to the block's 8 depth values. The first band repeats each
  of the block's 8 depth rows over 256 consecutive rows; the second repeats the 16 height rows, each over 16
  consecutive rows, with period 256; the third repeats the 16 width rows with period 16; the last column is the
  block's own column of extra entries. A later grid point of the same block copies the scratch buffer to the output
  without touching it.
-/
import proofs.«165813_j41308995453355_2_alg».proof.Proof.Gen.KernelIdeal.Frame
import proofs.«165813_j41308995453355_2_alg».proof.Proof.LibLattice
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx

namespace Cert.KernelIdeal.TileValue

open Cert.KernelIdeal Cert.KernelIdeal.Gen Cert.LibLattice

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The four bands' payloads at an index -/

/-- The depth band: row r of the block reads depth row r / 256 of the block's 8. -/
theorem pay1_apply (x0 : Vec F S8x341 .f32) (r : Fin 2048) (k : Fin 341) :
    k0_pay1 x0 (ix2 r k) = x0 (ix2 (⟨r.val / 256, by have := r.isLt; omega⟩ : Fin 8) k) := by
  show shapeCast S2048x341 (shapeCast S2048x341 (broadcastTo S8x256x341 (shapeCast S8x1x341
    (shapeCast S8x1x341 x0 shapeCasts_S8x341_S8x1x341) shapeCasts_S8x1x341_S8x1x341) broadcasts_S8x1x341_S8x256x341)
    shapeCasts_S8x256x341_S2048x341) shapeCasts_S2048x341_S2048x341 (ix2 r k) = _
  rw [shapeCast_self, shapeCast_self]
  exact (shapeCast_abc_mc_apply _ shapeCasts_S8x256x341_S2048x341 (by decide) rfl r k).trans
    ((broadcastTo_a1c_abc_apply _ broadcasts_S8x1x341_S8x256x341 _ _ k).trans
      (shapeCast_ab_a1b_apply x0 shapeCasts_S8x341_S8x1x341 _ 0 k))

/-- The height band: row r of the block reads height row r / 16 % 16. -/
theorem pay2_apply (x1 : Vec F S16x341 .f32) (r : Fin 2048) (k : Fin 341) :
    k0_pay2 x1 (ix2 r k) = x1 (ix2 (⟨r.val / 16 % 16, by omega⟩ : Fin 16) k) := by
  show shapeCast S2048x341 (shapeCast S2048x341 (broadcastTo S8x256x341 (shapeCast S1x256x341 (shapeCast S1x256x341
    (shapeCast S256x341 (broadcastTo S16x16x341 (shapeCast S16x1x341 (shapeCast S16x1x341 x1
      shapeCasts_S16x341_S16x1x341) shapeCasts_S16x1x341_S16x1x341) broadcasts_S16x1x341_S16x16x341)
      shapeCasts_S16x16x341_S256x341) shapeCasts_S256x341_S1x256x341) shapeCasts_S1x256x341_S1x256x341)
    broadcasts_S1x256x341_S8x256x341) shapeCasts_S8x256x341_S2048x341) shapeCasts_S2048x341_S2048x341 (ix2 r k) = _
  rw [shapeCast_self, shapeCast_self, shapeCast_self]
  refine (shapeCast_abc_mc_apply _ shapeCasts_S8x256x341_S2048x341 (by decide) rfl r k).trans ?_
  refine (broadcastTo_1bc_abc_apply _ broadcasts_S1x256x341_S8x256x341 _ _ k).trans ?_
  refine (shapeCast_ab_1ab_apply _ shapeCasts_S256x341_S1x256x341 0 _ k).trans ?_
  refine (shapeCast_abc_mc_apply _ shapeCasts_S16x16x341_S256x341 (by decide) rfl _ k).trans ?_
  refine (broadcastTo_a1c_abc_apply _ broadcasts_S16x1x341_S16x16x341 _ _ k).trans ?_
  refine (shapeCast_ab_a1b_apply x1 shapeCasts_S16x341_S16x1x341 _ 0 k).trans ?_
  exact congrArg x1 (congrArg (fun p => ix2 p k) (Fin.ext (by show r.val % 256 / 16 = r.val / 16 % 16; omega)))

/-- The width band: row r of the block reads width row r % 16. -/
theorem pay3_apply (x2 : Vec F S16x341 .f32) (r : Fin 2048) (k : Fin 341) :
    k0_pay3 x2 (ix2 r k) = x2 (ix2 (⟨r.val % 16, by omega⟩ : Fin 16) k) := by
  show shapeCast S2048x341 (shapeCast S2048x341 (broadcastTo S8x256x341 (shapeCast S1x256x341 (shapeCast S1x256x341
    (shapeCast S256x341 (broadcastTo S16x16x341 (shapeCast S1x16x341 (shapeCast S1x16x341 x2
      shapeCasts_S16x341_S1x16x341) shapeCasts_S1x16x341_S1x16x341) broadcasts_S1x16x341_S16x16x341)
      shapeCasts_S16x16x341_S256x341) shapeCasts_S256x341_S1x256x341) shapeCasts_S1x256x341_S1x256x341)
    broadcasts_S1x256x341_S8x256x341) shapeCasts_S8x256x341_S2048x341) shapeCasts_S2048x341_S2048x341 (ix2 r k) = _
  rw [shapeCast_self, shapeCast_self, shapeCast_self]
  refine (shapeCast_abc_mc_apply _ shapeCasts_S8x256x341_S2048x341 (by decide) rfl r k).trans ?_
  refine (broadcastTo_1bc_abc_apply _ broadcasts_S1x256x341_S8x256x341 _ _ k).trans ?_
  refine (shapeCast_ab_1ab_apply _ shapeCasts_S256x341_S1x256x341 0 _ k).trans ?_
  refine (shapeCast_abc_mc_apply _ shapeCasts_S16x16x341_S256x341 (by decide) rfl _ k).trans ?_
  refine (broadcastTo_1bc_abc_apply _ broadcasts_S1x16x341_S16x16x341 _ _ k).trans ?_
  refine (shapeCast_ab_1ab_apply x2 shapeCasts_S16x341_S1x16x341 0 _ k).trans ?_
  exact congrArg x2 (congrArg (fun p => ix2 p k) (Fin.ext (by show r.val % 256 % 16 = r.val % 16; omega)))

/-- The extra column is stored as loaded. -/
theorem pay4_eq (x3 : Vec F S2048x1 .f32) : k0_pay4 x3 = x3 := by
  show shapeCast S2048x1 (shapeCast S2048x1 x3 shapeCasts_S2048x1_S2048x1) shapeCasts_S2048x1_S2048x1 = x3
  rw [shapeCast_self, shapeCast_self]

/-- The copy to the output block only adds the block's leading unit axis. -/
theorem pay5_apply (v : Vec F S2048x1024 .f32) (u : Fin 1) (r : Fin 2048) (c : Fin 1024) :
    k0_pay5 v (ix3 u r c) = v (ix2 r c) :=
  shapeCast_ab_1ab_apply v shapeCasts_S2048x1024_S1x2048x1024 u r c

/-! ## The built block -/

/-- Entry (r, c) of the built block, from the block's 8 depth rows `x0`, the height and width tables `x1`, `x2`, and
    the block's column of extra entries `x3`. -/
def tileAt (x0 : Vec F S8x341 .f32) (x1 x2 : Vec F S16x341 .f32) (x3 : Vec F S2048x1 .f32) (r : Fin 2048) (c : Fin 1024) :
    Elt F .f32 :=
  if h1 : c.val < 341 then x0 (ix2 (⟨r.val / 256, by have := r.isLt; omega⟩ : Fin 8) (⟨c.val, h1⟩ : Fin 341))
  else if h2 : c.val < 682 then x1 (ix2 (⟨r.val / 16 % 16, by omega⟩ : Fin 16) (⟨c.val - 341, by omega⟩ : Fin 341))
  else if h3 : c.val < 1023 then x2 (ix2 (⟨r.val % 16, by omega⟩ : Fin 16) (⟨c.val - 682, by omega⟩ : Fin 341))
  else x3 (ix2 r (0 : Fin 1))

/-- The built block. -/
def tile (x0 : Vec F S8x341 .f32) (x1 x2 : Vec F S16x341 .f32) (x3 : Vec F S2048x1 .f32) : Vec F S2048x1024 .f32 :=
  fun y => tileAt x0 x1 x2 x3 (y 0) (y 1)

/-- What four band stores leave in the scratch buffer, last store first: at column c, the payload of the band that
    holds c. -/
theorem canon_bands (w1 w2 w3 : S2048x341.Idx → Elt F .f32) (w4 : S2048x1.Idx → Elt F .f32)
    (i1 : ∀ a, (![0, 0] : Fin 2 → Nat) a + S2048x341.size a ≤ S2048x1024.size a)
    (i2 : ∀ a, (![0, 341] : Fin 2 → Nat) a + S2048x341.size a ≤ S2048x1024.size a)
    (i3 : ∀ a, (![0, 682] : Fin 2 → Nat) a + S2048x341.size a ≤ S2048x1024.size a)
    (i4 : ∀ a, (![0, 1023] : Fin 2 → Nat) a + S2048x1.size a ≤ S2048x1024.size a)
    (r : Fin 2048) (c : Fin 1024) :
    View.canon [(⟨Rect.unit (s := S2048x1024) ![0, 1023] S2048x1.size i4, w4⟩ : View.Piece (Elt F) S2048x1024 .f32),
        ⟨Rect.unit (s := S2048x1024) ![0, 682] S2048x341.size i3, w3⟩,
        ⟨Rect.unit (s := S2048x1024) ![0, 341] S2048x341.size i2, w2⟩,
        ⟨Rect.unit (s := S2048x1024) ![0, 0] S2048x341.size i1, w1⟩] (ix2 r c)
      = if h1 : c.val < 341 then w1 (ix2 r (⟨c.val, h1⟩ : Fin 341))
        else if h2 : c.val < 682 then w2 (ix2 r (⟨c.val - 341, by omega⟩ : Fin 341))
        else if h3 : c.val < 1023 then w3 (ix2 r (⟨c.val - 682, by omega⟩ : Fin 341))
        else w4 (ix2 r (0 : Fin 1)) := by
  have hc := c.isLt
  by_cases h1 : c.val < 341
  · rw [dif_pos h1]
    refine (canon_band_miss (a := 2048) (n := 1024) (w := 1) (o := 1023) i4 w4 _ r c (Or.inl (by omega))).trans ?_
    refine (canon_band_miss (a := 2048) (n := 1024) (w := 341) (o := 682) i3 w3 _ r c (Or.inl (by omega))).trans ?_
    refine (canon_band_miss (a := 2048) (n := 1024) (w := 341) (o := 341) i2 w2 _ r c (Or.inl (by omega))).trans ?_
    exact canon_band_hit (a := 2048) (n := 1024) (w := 341) (o := 0) i1 w1 _ r c (by omega) (by omega)
  · rw [dif_neg h1]
    by_cases h2 : c.val < 682
    · rw [dif_pos h2]
      refine (canon_band_miss (a := 2048) (n := 1024) (w := 1) (o := 1023) i4 w4 _ r c (Or.inl (by omega))).trans ?_
      refine (canon_band_miss (a := 2048) (n := 1024) (w := 341) (o := 682) i3 w3 _ r c (Or.inl (by omega))).trans ?_
      exact canon_band_hit (a := 2048) (n := 1024) (w := 341) (o := 341) i2 w2 _ r c (by omega) (by omega)
    · rw [dif_neg h2]
      by_cases h3 : c.val < 1023
      · rw [dif_pos h3]
        refine (canon_band_miss (a := 2048) (n := 1024) (w := 1) (o := 1023) i4 w4 _ r c (Or.inl (by omega))).trans ?_
        exact canon_band_hit (a := 2048) (n := 1024) (w := 341) (o := 682) i3 w3 _ r c (by omega) (by omega)
      · rw [dif_neg h3]
        refine (canon_band_hit (a := 2048) (n := 1024) (w := 1) (o := 1023) i4 w4 _ r c (by omega) (by omega)).trans ?_
        exact congrArg w4 (congrArg (ix2 r) (Fin.ext (by show c.val - 1023 = 0; omega)))

/-- The four bands cover the scratch buffer. -/
theorem bands_cover (w1 w2 w3 : S2048x341.Idx → Elt F .f32) (w4 : S2048x1.Idx → Elt F .f32)
    (i1 : ∀ a, (![0, 0] : Fin 2 → Nat) a + S2048x341.size a ≤ S2048x1024.size a)
    (i2 : ∀ a, (![0, 341] : Fin 2 → Nat) a + S2048x341.size a ≤ S2048x1024.size a)
    (i3 : ∀ a, (![0, 682] : Fin 2 → Nat) a + S2048x341.size a ≤ S2048x1024.size a)
    (i4 : ∀ a, (![0, 1023] : Fin 2 → Nat) a + S2048x1.size a ≤ S2048x1024.size a) (y : S2048x1024.Idx) :
    ∃ p ∈ [(⟨Rect.unit (s := S2048x1024) ![0, 1023] S2048x1.size i4, w4⟩ : View.Piece (Elt F) S2048x1024 .f32),
        ⟨Rect.unit (s := S2048x1024) ![0, 682] S2048x341.size i3, w3⟩,
        ⟨Rect.unit (s := S2048x1024) ![0, 341] S2048x341.size i2, w2⟩,
        ⟨Rect.unit (s := S2048x1024) ![0, 0] S2048x341.size i1, w1⟩], y ∈ p.1.set := by
  obtain ⟨r, c, rfl⟩ : ∃ (r : Fin 2048) (c : Fin 1024), y = ix2 r c := ⟨y 0, y 1, eq_ix2 y⟩
  have hc := c.isLt
  by_cases h1 : c.val < 341
  · exact ⟨_, List.mem_cons_of_mem _ (List.mem_cons_of_mem _ (List.mem_cons_of_mem _ List.mem_cons_self)),
      mem_band (a := 2048) (n := 1024) (w := 341) (o := 0) i1 r c (by omega) (by omega)⟩
  · by_cases h2 : c.val < 682
    · exact ⟨_, List.mem_cons_of_mem _ (List.mem_cons_of_mem _ List.mem_cons_self),
        mem_band (a := 2048) (n := 1024) (w := 341) (o := 341) i2 r c (by omega) (by omega)⟩
    · by_cases h3 : c.val < 1023
      · exact ⟨_, List.mem_cons_of_mem _ List.mem_cons_self,
          mem_band (a := 2048) (n := 1024) (w := 341) (o := 682) i3 r c (by omega) (by omega)⟩
      · exact ⟨_, List.mem_cons_self, mem_band (a := 2048) (n := 1024) (w := 1) (o := 1023) i4 r c (by omega) (by omega)⟩

/-- The four band stores of the body, over the loaded blocks, leave the built block. -/
theorem built_eq (x0 : Vec F S8x341 .f32) (x1 x2 : Vec F S16x341 .f32) (x3 : Vec F S2048x1 .f32)
    (i1 : ∀ a, (![0, 0] : Fin 2 → Nat) a + S2048x341.size a ≤ S2048x1024.size a)
    (i2 : ∀ a, (![0, 341] : Fin 2 → Nat) a + S2048x341.size a ≤ S2048x1024.size a)
    (i3 : ∀ a, (![0, 682] : Fin 2 → Nat) a + S2048x341.size a ≤ S2048x1024.size a)
    (i4 : ∀ a, (![0, 1023] : Fin 2 → Nat) a + S2048x1.size a ≤ S2048x1024.size a) :
    View.canon [(⟨Rect.unit (s := S2048x1024) ![0, 1023] S2048x1.size i4, k0_pay4 x3⟩ : View.Piece (Elt F) S2048x1024 .f32),
        ⟨Rect.unit (s := S2048x1024) ![0, 682] S2048x341.size i3, k0_pay3 x2⟩,
        ⟨Rect.unit (s := S2048x1024) ![0, 341] S2048x341.size i2, k0_pay2 x1⟩,
        ⟨Rect.unit (s := S2048x1024) ![0, 0] S2048x341.size i1, k0_pay1 x0⟩] = tile x0 x1 x2 x3 := by
  funext y
  obtain ⟨r, c, rfl⟩ : ∃ (r : Fin 2048) (c : Fin 1024), y = ix2 r c := ⟨y 0, y 1, eq_ix2 y⟩
  rw [canon_bands]
  show _ = tileAt x0 x1 x2 x3 r c
  unfold tileAt
  simp only [pay1_apply, pay2_apply, pay3_apply, pay4_eq]

/-! ## The two cases of the body -/

/-- At a block's first grid point the body leaves the built block in the scratch buffer. -/
theorem scratch_A (c : Dev nD) (i : grid0.Coords) (arg2 : Memref sig .tc .vmem S8x341 .f32) (harg2 : arg2.IsWhole) (arg3 : Memref sig .tc .vmem S16x341 .f32) (harg3 : arg3.IsWhole) (arg4 : Memref sig .tc .vmem S16x341 .f32) (harg4 : arg4.IsWhole) (arg5 : Memref sig .tc .vmem S2048x1 .f32) (harg5 : arg5.IsWhole) (arg6 : Memref sig .tc .vmem S1x2048x1024 .f32) (harg6 : arg6.IsWhole) (arg7 : Memref sig .tc .vmem S2048x1024 .f32) (harg7 : arg7.IsWhole) (hc0 : cond0_0 i)
    (x0 : Vec F S8x341 .f32) (x1 : Vec F S16x341 .f32) (x2 : Vec F S16x341 .f32) (x3 : Vec F S2048x1 .f32) :
    sout0_A_0 c i arg2 harg2 arg3 harg3 arg4 harg4 arg5 harg5 arg6 harg6 arg7 harg7 hc0 x0 x1 x2 x3 = tile x0 x1 x2 x3 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  simp only [View.readAt_eq_ld, harg2.read_unread, harg3.read_unread, harg4.read_unread, harg5.read_unread,
    View.ld_unit_zero (S := S8x341) hz2, View.ld_unit_zero (S := S16x341) hz2, View.ld_unit_zero (S := S2048x1) hz2]
  exact built_eq x0 x1 x2 x3 _ _ _ _

/-- and copies it to the output block; -/
theorem out_A (c : Dev nD) (i : grid0.Coords) (arg2 : Memref sig .tc .vmem S8x341 .f32) (harg2 : arg2.IsWhole) (arg3 : Memref sig .tc .vmem S16x341 .f32) (harg3 : arg3.IsWhole) (arg4 : Memref sig .tc .vmem S16x341 .f32) (harg4 : arg4.IsWhole) (arg5 : Memref sig .tc .vmem S2048x1 .f32) (harg5 : arg5.IsWhole) (arg6 : Memref sig .tc .vmem S1x2048x1024 .f32) (harg6 : arg6.IsWhole) (arg7 : Memref sig .tc .vmem S2048x1024 .f32) (harg7 : arg7.IsWhole) (hc0 : cond0_0 i)
    (x0 : Vec F S8x341 .f32) (x1 : Vec F S16x341 .f32) (x2 : Vec F S16x341 .f32) (x3 : Vec F S2048x1 .f32) :
    out0_A_4 c i arg2 harg2 arg3 harg3 arg4 harg4 arg5 harg5 arg6 harg6 arg7 harg7 hc0 x0 x1 x2 x3 = k0_pay5 (tile x0 x1 x2 x3) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz3]
  rw [View.readCov_eq_canon_ld _ _ _ (bands_cover _ _ _ _ _ _ _ _), View.ld_unit_zero (S := S2048x1024) hz2]
  simp only [View.readAt_eq_ld, harg2.read_unread, harg3.read_unread, harg4.read_unread, harg5.read_unread,
    View.ld_unit_zero (S := S8x341) hz2, View.ld_unit_zero (S := S16x341) hz2, View.ld_unit_zero (S := S2048x1) hz2]
  exact congrArg k0_pay5 (built_eq x0 x1 x2 x3 _ _ _ _)

/-- at the block's later grid points it copies what the scratch buffer holds. -/
theorem out_B (c : Dev nD) (i : grid0.Coords) (arg2 : Memref sig .tc .vmem S8x341 .f32) (harg2 : arg2.IsWhole) (arg3 : Memref sig .tc .vmem S16x341 .f32) (harg3 : arg3.IsWhole) (arg4 : Memref sig .tc .vmem S16x341 .f32) (harg4 : arg4.IsWhole) (arg5 : Memref sig .tc .vmem S2048x1 .f32) (harg5 : arg5.IsWhole) (arg6 : Memref sig .tc .vmem S1x2048x1024 .f32) (harg6 : arg6.IsWhole) (arg7 : Memref sig .tc .vmem S2048x1024 .f32) (harg7 : arg7.IsWhole) (hc0 : ¬cond0_0 i)
    (x0 : Vec F S8x341 .f32) (x1 : Vec F S16x341 .f32) (x2 : Vec F S16x341 .f32) (x3 : Vec F S2048x1 .f32) (xs0 : Vec F S2048x1024 .f32) :
    out0_B_4 c i arg2 harg2 arg3 harg3 arg4 harg4 arg5 harg5 arg6 harg6 arg7 harg7 hc0 x0 x1 x2 x3 xs0 = k0_pay5 xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  rw [View.canon_unit_zero hz3]
  simp only [View.readAt_eq_ld, harg7.read_unread, View.ld_unit_zero (S := S2048x1024) hz2]

end Cert.KernelIdeal.TileValue

end
-- ==== Proof.PosSpec.lean ====
/-
  The positional table both programs compute, as one function of the four small tables.

  A position n in [0, 4096) is the row-major flattening of a point (d, h, w) of the 16 x 16 x 16 lattice:
  d = n / 256, h = n / 16 % 16, w = n % 16. Row n of the table lays four bands side by side along its 1024 columns:
  columns [0, 341) hold row d of the depth table, columns [341, 682) row h of the height table, columns [682, 1023)
  row w of the width table, and the last column the one extra entry of the lattice point (d, h, w). The result array
  repeats that table for each of the 8 batch entries: it does not depend on the batch coordinate at all, and no
  arithmetic is done on the entries, so the element type is left abstract.
-/
import Idealize.ShloMosaic.PureOps.Ideal
import Idealize.ShloMosaic.Lib.ValueIdx

namespace Cert.PosTable

open Idealize.ShloMosaic Idealize.ShloMosaic.ValueIdx

variable {α : Type}

/-- Entry (n, c) of the 4096 x 1024 table: the band of column c picks the small table, the lattice coordinates of
    n pick its row. -/
def posRow (pd ph pw : (⟨2, ![16, 341]⟩ : Shape).Idx → α) (ex : (⟨4, ![16, 16, 16, 1]⟩ : Shape).Idx → α)
    (n : Fin 4096) (c : Fin 1024) : α :=
  if h1 : c.val < 341 then
    pd (ix2 (⟨n.val / 256, by have := n.isLt; omega⟩ : Fin 16) (⟨c.val, h1⟩ : Fin 341))
  else if h2 : c.val < 682 then
    ph (ix2 (⟨n.val / 16 % 16, by omega⟩ : Fin 16) (⟨c.val - 341, by omega⟩ : Fin 341))
  else if h3 : c.val < 1023 then
    pw (ix2 (⟨n.val % 16, by omega⟩ : Fin 16) (⟨c.val - 682, by omega⟩ : Fin 341))
  else
    ex (ix4 (⟨n.val / 256, by have := n.isLt; omega⟩ : Fin 16) (⟨n.val / 16 % 16, by omega⟩ : Fin 16)
      (⟨n.val % 16, by omega⟩ : Fin 16) (0 : Fin 1))

/-- The result array: the table, once per batch entry. -/
def posTable (pd ph pw : (⟨2, ![16, 341]⟩ : Shape).Idx → α) (ex : (⟨4, ![16, 16, 16, 1]⟩ : Shape).Idx → α) :
    (⟨3, ![8, 4096, 1024]⟩ : Shape).Idx → α :=
  fun j => posRow pd ph pw ex (j 1) (j 2)

theorem posTable_apply (pd ph pw : (⟨2, ![16, 341]⟩ : Shape).Idx → α) (ex : (⟨4, ![16, 16, 16, 1]⟩ : Shape).Idx → α)
    (b : Fin 8) (n : Fin 4096) (c : Fin 1024) :
    posTable pd ph pw ex (ix3 b n c) = posRow pd ph pw ex n c := rfl

end Cert.PosTable
-- ==== Proof.KernelRun.lean ====
/-
  The kernel's result array is the positional table.

  The grid has 16 points, t = 8 * q + b for the block q of 2048 positions and the batch entry b. Point t is handed
  the 8 depth rows [8 q, 8 q + 8) of the depth table, the whole height and width tables, and rows [2048 q, 2048 q + 2048)
  of the flattened extra entries; it writes output block (b, q). Position 2048 q + r of the lattice has depth
  coordinate 8 q + r / 256 and the same height and width coordinates as r, so the block built at the first point of
  q (b = 0) is rows [2048 q, 2048 q + 2048) of the table. The points b > 0 of the same q find the scratch buffer as
  the point before left it, so by induction along the grid every point copies those rows of the table to its output
  block, and the 16 output blocks tile the result array.
-/
import proofs.«165813_j41308995453355_2_alg».proof.Proof.Gen.KernelIdeal.Value
import proofs.«165813_j41308995453355_2_alg».proof.Proof.KernelTile
import proofs.«165813_j41308995453355_2_alg».proof.Proof.PosSpec
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.TileValue Cert.PosTable

variable {F : FTy → Type} [FloatOps F]
variable (m : (ℓ : Loc nD τ sig) → Buf (Elt F) ℓ) (ρ : Dev nD → PrngReg)

/-- The table's entry (n, c) from the argument arrays of core `c`. -/
abbrev row (c : Dev nD) (n : Fin 4096) (cc : Fin 1024) : Elt F .f32 :=
  posRow (m ((c : Thread nD τ).loc main_arg1)) (m ((c : Thread nD τ).loc main_arg2)) (m ((c : Thread nD τ).loc main_arg3))
    (m ((c : Thread nD τ).loc main_arg4)) n cc

/-- The result array: the table of the argument arrays, once per batch entry. -/
abbrev result (c : Dev nD) : Buf (Elt F) ((c : Thread nD τ).loc main_v1) :=
  posTable (m ((c : Thread nD τ).loc main_arg1)) (m ((c : Thread nD τ).loc main_arg2)) (m ((c : Thread nD τ).loc main_arg3))
    (m ((c : Thread nD τ).loc main_arg4))

/-! ## Which blocks a grid point is handed -/

/-- The printed index maps over the grid: point t = 8 q + b reads block q of the depth table and of the extra entries,
    the one block of the height and width tables, and writes output block (b, q, 0). -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0
    ∧ win0_4.index t (0 : Fin 3) = t.val % 8 ∧ win0_4.index t (1 : Fin 3) = t.val / 8 ∧ win0_4.index t (2 : Fin 3) = 0 :=
  (by decide +kernel : ∀ t : Fin grid0.N, _)

theorem lt16 (t : Fin cfg0.N) : t.val < 16 := lt_of_lt_of_eq t.isLt (show cfg0.N = 16 from N_0)

/-- The depth rows of point t's block. -/
theorem iblk0_apply (c : Dev nD) (t : Fin cfg0.N) (p : Fin 8) (k : Fin 341) :
    (iblk m c 0 t : Vec F S8x341 .f32) (ix2 p k)
      = m ((c : Thread nD τ).loc main_arg1) (ix2 (⟨8 * (t.val / 8) + p.val, by have := lt16 t; omega⟩ : Fin 16) k) := by
  obtain ⟨e0, e1, -⟩ := idx_facts t
  unfold iblk
  rw [View.read_apply]
  show V m c main_arg1 _ = _
  rw [V_main_arg1]
  refine congrArg _ (funext fun a => Fin.ext ?_)
  match a with
  | ⟨0, _⟩ => show win0_0.index t (0 : Fin 2) * 8 + 1 * p.val = 8 * (t.val / 8) + p.val; rw [e0]; omega
  | ⟨1, _⟩ => show win0_0.index t (1 : Fin 2) * 341 + 1 * k.val = k.val; rw [e1]; omega

/-- Every point is handed the whole height table, -/
theorem iblk1_apply (c : Dev nD) (t : Fin cfg0.N) (p : Fin 16) (k : Fin 341) :
    (iblk m c 1 t : Vec F S16x341 .f32) (ix2 p k) = m ((c : Thread nD τ).loc main_arg2) (ix2 p k) := by
  obtain ⟨-, -, e0, e1, -⟩ := idx_facts t
  unfold iblk
  rw [View.read_apply]
  show V m c main_arg2 _ = _
  rw [V_main_arg2]
  refine congrArg _ (funext fun a => Fin.ext ?_)
  match a with
  | ⟨0, _⟩ => show win0_1.index t (0 : Fin 2) * 16 + 1 * p.val = p.val; rw [e0]; omega
  | ⟨1, _⟩ => show win0_1.index t (1 : Fin 2) * 341 + 1 * k.val = k.val; rw [e1]; omega

/-- and the whole width table. -/
theorem iblk2_apply (c : Dev nD) (t : Fin cfg0.N) (p : Fin 16) (k : Fin 341) :
    (iblk m c 2 t : Vec F S16x341 .f32) (ix2 p k) = m ((c : Thread nD τ).loc main_arg3) (ix2 p k) := by
  obtain ⟨-, -, -, -, e0, e1, -⟩ := idx_facts t
  unfold iblk
  rw [View.read_apply]
  show V m c main_arg3 _ = _
  rw [V_main_arg3]
  refine congrArg _ (funext fun a => Fin.ext ?_)
  match a with
  | ⟨0, _⟩ => show win0_2.index t (0 : Fin 2) * 16 + 1 * p.val = p.val; rw [e0]; omega
  | ⟨1, _⟩ => show win0_2.index t (1 : Fin 2) * 341 + 1 * k.val = k.val; rw [e1]; omega

/-- The extra entries reach the region flattened to one column of 4096 rows. -/
theorem V_main_v0 (c : Dev nD) :
    (V m c main_v0 : S4096x1.Idx → Elt F .f32)
      = shapeCast S4096x1 (m ((c : Thread nD τ).loc main_arg4)) shapeCasts_S16x16x16x1_S4096x1 := by
  dsimp only [Gen.V, Gen.hostOps0]
  after_results
  rfl

/-- Row n of that column is the extra entry of the lattice point (n / 256, n / 16 % 16, n % 16). -/
theorem flat_extra (x4 : S16x16x16x1.Idx → Elt F .f32) (n : Fin 4096) (u : Fin 1) :
    shapeCast S4096x1 x4 shapeCasts_S16x16x16x1_S4096x1 (ix2 n u)
      = x4 (ix4 (⟨n.val / 256, by have := n.isLt; omega⟩ : Fin 16) (⟨n.val / 16 % 16, by omega⟩ : Fin 16)
          (⟨n.val % 16, by omega⟩ : Fin 16) (0 : Fin 1)) :=
  shapeCast_apply x4 shapeCasts_S16x16x16x1_S4096x1 _ _ (by
    have hu : u.val = 0 := by omega
    have hn := n.isLt
    rw [Shape.rowMajor_val_four, Shape.rowMajor_val_two]
    show ((n.val / 256 * 16 + n.val / 16 % 16) * 16 + n.val % 16) * 1 + 0 = n.val * 1 + u.val
    omega)

/-- The extra column of point t's block. -/
theorem iblk3_apply (c : Dev nD) (t : Fin cfg0.N) (r : Fin 2048) (u : Fin 1) :
    (iblk m c 3 t : Vec F S2048x1 .f32) (ix2 r u)
      = m ((c : Thread nD τ).loc main_arg4)
          (ix4 (⟨(2048 * (t.val / 8) + r.val) / 256, by have := lt16 t; have := r.isLt; omega⟩ : Fin 16)
            (⟨(2048 * (t.val / 8) + r.val) / 16 % 16, by omega⟩ : Fin 16)
            (⟨(2048 * (t.val / 8) + r.val) % 16, by omega⟩ : Fin 16) (0 : Fin 1)) := by
  obtain ⟨-, -, -, -, -, -, e0, e1, -⟩ := idx_facts t
  have ht := lt16 t
  unfold iblk
  rw [View.read_apply]
  show V m c main_v0 _ = _
  rw [V_main_v0]
  refine Eq.trans (congrArg _ (?_ : _ = ix2 (⟨2048 * (t.val / 8) + r.val, by have := r.isLt; omega⟩ : Fin 4096) u))
    (flat_extra _ _ u)
  refine funext fun a => Fin.ext ?_
  match a with
  | ⟨0, _⟩ => show win0_3.index t (0 : Fin 2) * 2048 + 1 * r.val = 2048 * (t.val / 8) + r.val; rw [e0]; omega
  | ⟨1, _⟩ => show win0_3.index t (1 : Fin 2) * 1 + 1 * u.val = u.val; rw [e1]; omega

/-! ## The block a point builds is its rows of the table -/

/-- Rows [2048 q, 2048 q + 2048) of the table, q the block of point t. -/
def blockAt (c : Dev nD) (t : Fin cfg0.N) : Vec F S2048x1024 .f32 :=
  fun y => row m c (⟨2048 * (t.val / 8) + (y 0).val, by have := lt16 t; have := idx2_lt0 y; omega⟩ : Fin 4096) (y 1)

/-- Built from the blocks point t is handed, the block is those rows. -/
theorem tile_eq_blockAt (c : Dev nD) (t : Fin cfg0.N) :
    tile (iblk m c 0 t) (iblk m c 1 t) (iblk m c 2 t) (iblk m c 3 t) = blockAt m c t := by
  have ht := lt16 t
  funext y
  obtain ⟨r, cc, rfl⟩ : ∃ (r : Fin 2048) (cc : Fin 1024), y = ix2 r cc := ⟨y 0, y 1, eq_ix2 y⟩
  have hr := r.isLt
  show tileAt (iblk m c 0 t) (iblk m c 1 t) (iblk m c 2 t) (iblk m c 3 t) r cc
    = posRow _ _ _ _ (⟨2048 * (t.val / 8) + r.val, by omega⟩ : Fin 4096) cc
  unfold tileAt posRow
  by_cases h1 : cc.val < 341
  · rw [dif_pos h1, dif_pos h1, iblk0_apply]
    exact congrArg _ (congrArg (fun p => ix2 p _) (Fin.ext (by
      show 8 * (t.val / 8) + r.val / 256 = (2048 * (t.val / 8) + r.val) / 256; omega)))
  · rw [dif_neg h1, dif_neg h1]
    by_cases h2 : cc.val < 682
    · rw [dif_pos h2, dif_pos h2, iblk1_apply]
      exact congrArg _ (congrArg (fun p => ix2 p _) (Fin.ext (by
        show r.val / 16 % 16 = (2048 * (t.val / 8) + r.val) / 16 % 16; omega)))
    · rw [dif_neg h2, dif_neg h2]
      by_cases h3 : cc.val < 1023
      · rw [dif_pos h3, dif_pos h3, iblk2_apply]
        exact congrArg _ (congrArg (fun p => ix2 p _) (Fin.ext (by
          show r.val % 16 = (2048 * (t.val / 8) + r.val) % 16; omega)))
      · rw [dif_neg h3, dif_neg h3, iblk3_apply]

/-- A point that is not the first of its block has the same block as the point before. -/
theorem blockAt_pred (c : Dev nD) (n : ℕ) (h : n + 1 < cfg0.N) (h0 : ¬(n + 1) % 8 = 0) :
    blockAt m c ⟨n, Nat.lt_of_succ_lt h⟩ = blockAt m c ⟨n + 1, h⟩ := by
  funext y
  unfold blockAt
  exact congrArg (fun p => row m c p (y 1)) (Fin.ext (by show 2048 * (n / 8) + (y 0).val = 2048 * ((n + 1) / 8) + (y 0).val; omega))

/-! ## Along the grid -/

/-- At the first point of a block the scratch buffer ends at the built block, -/
theorem scratch_at_A (c : Dev nD) (t : Fin cfg0.N) (h0 : t.val % 8 = 0) :
    (outsAt0 m c t.val t.isLt).2 = tile (iblk m c 0 t) (iblk m c 1 t) (iblk m c 2 t) (iblk m c 3 t) := by
  rw [outsAt0_A m c t h0]
  dsimp only
  exact scratch_A c (grid0.coords t) (ms0_0 t) (hs0_0 t) (ms0_1 t) (hs0_1 t) (ms0_2 t) (hs0_2 t) (ms0_3 t) (hs0_3 t)
    (ms0_4 t) (hs0_4 t) scM0_0 (Memref.isWhole_whole _) ((hcond0_0 t).mpr h0) (iblk m c 0 t) (iblk m c 1 t) (iblk m c 2 t)
    (iblk m c 3 t)

/-- and the output block at its copy; -/
theorem out_at_A (c : Dev nD) (t : Fin cfg0.N) (h0 : t.val % 8 = 0) :
    (outsAt0 m c t.val t.isLt).1 = k0_pay5 (tile (iblk m c 0 t) (iblk m c 1 t) (iblk m c 2 t) (iblk m c 3 t)) := by
  rw [outsAt0_A m c t h0]
  dsimp only
  exact out_A c (grid0.coords t) (ms0_0 t) (hs0_0 t) (ms0_1 t) (hs0_1 t) (ms0_2 t) (hs0_2 t) (ms0_3 t) (hs0_3 t)
    (ms0_4 t) (hs0_4 t) scM0_0 (Memref.isWhole_whole _) ((hcond0_0 t).mpr h0) (iblk m c 0 t) (iblk m c 1 t) (iblk m c 2 t)
    (iblk m c 3 t)

/-- at a later point the scratch buffer stays as the point before left it, -/
theorem scratch_at_B (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- and the output block ends at its copy. -/
theorem out_at_B (c : Dev nD) (t : Fin cfg0.N) (h0 : ¬t.val % 8 = 0) :
    (outsAt0 m c t.val t.isLt).1
      = k0_pay5 (outsAt0 m c (t.val - 1) (Nat.lt_of_le_of_lt (Nat.sub_le _ _) t.isLt)).2 := by
  rw [outsAt0_B m c t h0]
  dsimp only
  exact out_B c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) (iblk m c 0 t) (iblk m c 1 t)
    (iblk m c 2 t) (iblk m c 3 t) (outsAt0 m c (t.val - 1) (Nat.lt_of_le_of_lt (Nat.sub_le _ _) t.isLt)).2

/-- After every point the scratch buffer holds the rows of the table of the point's block: built there at the
    block's first point, kept since. -/
theorem scratch_eq (c : Dev nD) : ∀ (n : ℕ) (h : n < cfg0.N), (outsAt0 m c n h).2 = blockAt m c ⟨n, h⟩
  | 0, h => (scratch_at_A m c ⟨0, h⟩ rfl).trans (tile_eq_blockAt m c ⟨0, h⟩)
  | n + 1, h => by
    by_cases h0 : (n + 1) % 8 = 0
    · exact (scratch_at_A m c ⟨n + 1, h⟩ h0).trans (tile_eq_blockAt m c ⟨n + 1, h⟩)
    · rw [scratch_at_B m c ⟨n + 1, h⟩ h0]
      show (outsAt0 m c n _).2 = _
      rw [scratch_eq c n (Nat.lt_of_succ_lt h)]
      exact blockAt_pred m c n h h0

/-- So every point leaves in its output block the copy of those rows. -/
theorem out_eq (c : Dev nD) (t : Fin cfg0.N) : (outsAt0 m c t.val t.isLt).1 = k0_pay5 (blockAt m c t) := by
  by_cases h0 : t.val % 8 = 0
  · rw [out_at_A m c t h0, tile_eq_blockAt]
  · rw [out_at_B m c t h0, ← scratch_at_B m c t h0, scratch_eq m c t.val t.isLt]

/-! ## From blocks to the array -/

/-- The copy read at an index of the output block. -/
theorem pay5_at (v : Vec F S2048x1024 .f32) (j : S1x2048x1024.Idx) : k0_pay5 v j = v (ix2 (j 1) (j 2)) := by
  conv_lhs => rw [eq_ix3 j]
  exact pay5_apply v (j 0) (j 1) (j 2)

/-- What point t writes back is its block of the result array. -/
theorem flushed_eq (c : Dev nD) (t : Fin cfg0.N) :
    (dats m 0 c).flushed 4 t = ((cfg0.win 4).blk t).view.read (Elt F) (result m c) := by
  obtain ⟨-, -, -, -, -, -, -, -, e0, e1, e2⟩ := idx_facts t
  have ht := lt16 t
  rw [Cert.KernelIdeal.Value.flushed4, out_eq]
  funext j
  show k0_pay5 (blockAt m c t) j = result m c (((cfg0.win 4).blk t).view.emb j)
  rw [pay5_at]
  have hj1 : (j 1).val < 2048 := (j 1).isLt
  have h1 : (((cfg0.win 4).blk t).view.emb j) 1 = (⟨2048 * (t.val / 8) + (j 1).val, by omega⟩ : Fin 4096) :=
    Fin.ext (by show win0_4.index t (1 : Fin 3) * 2048 + 1 * (j 1).val = 2048 * (t.val / 8) + (j 1).val; rw [e1]; omega)
  have h2 : (((cfg0.win 4).blk t).view.emb j) 2 = j 2 :=
    Fin.ext (by show win0_4.index t (2 : Fin 3) * 1024 + 1 * (j 2).val = (j 2).val; rw [e2]; omega)
  show row m c _ _ = row m c ((((cfg0.win 4).blk t).view.emb j) 1) ((((cfg0.win 4).blk t).view.emb j) 2)
  rw [h1, h2]

/-- An index of the result array is in point t's block iff each coordinate is in the block's range on its axis. -/
theorem mem_blk (t : Fin cfg0.N) (i : S8x4096x1024.Idx) :
    i ∈ ((cfg0.win 4).blk t).view.set ↔ ∀ a : Fin 3, win0_4.index t a * S1x2048x1024.size a ≤ (i a).val
      ∧ (i a).val < win0_4.index t a * S1x2048x1024.size a + S1x2048x1024.size a := by
  show i ∈ ((View.whole main_v1).slice (win0_4.rect t)).set ↔ _
  rw [View.set_slice_whole, Rect.mem_set_unit]
  exact Iff.rfl

/-- Every index (b, n, c) of the result array is in the block of the point 8 (n / 2048) + b. -/
theorem cover (i : S8x4096x1024.Idx) :
    ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 1024 := (i 2).isLt
  have hN : cfg0.N = 16 := N_0
  refine ⟨⟨(i 1).val / 2048 * 8 + (i 0).val, by omega⟩, flush0_4 _, ?_⟩
  rw [mem_blk]
  obtain ⟨-, -, -, -, -, -, -, -, e0, e1, e2⟩ := idx_facts ⟨(i 1).val / 2048 * 8 + (i 0).val, by omega⟩
  intro a
  match a with
  | ⟨0, _⟩ =>
    show win0_4.index _ (0 : Fin 3) * 1 ≤ (i 0).val ∧ (i 0).val < win0_4.index _ (0 : Fin 3) * 1 + 1
    rw [e0]; dsimp only; omega
  | ⟨1, _⟩ =>
    show win0_4.index _ (1 : Fin 3) * 2048 ≤ (i 1).val ∧ (i 1).val < win0_4.index _ (1 : Fin 3) * 2048 + 2048
    rw [e1]; dsimp only; omega
  | ⟨2, _⟩ =>
    show win0_4.index _ (2 : Fin 3) * 1024 ≤ (i 2).val ∧ (i 2).val < win0_4.index _ (2 : Fin 3) * 1024 + 1024
    rw [e2]; omega

/-- The result array after the run is the positional table of the argument arrays. -/
theorem final (c : Dev nD) : (dats m 0 c).arrAt 4 cfg0.N = result m c :=
  (dats m 0 c).arrAt_eq_of_cover 4 (result m c) (fun t _ => flushed_eq m c t) cover

/-- The kernel's run: the result array at the table, the arguments unchanged. -/
theorem run : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.RunValue

end
-- ==== Proof.RefSide.lean ====
/-
  The reference computes the positional table.

  The reference broadcasts each of the three small tables over the 16 x 16 x 16 lattice (the depth table along the
  first lattice axis, the height table along the second, the width table along the third), joins the three bands and
  the extra entry along the last axis, flattens the lattice to 4096 rows, and repeats the result for each batch entry.
  Read at an index (b, n, c): the batch coordinate is dropped, row n is the lattice point (n / 256, n / 16 % 16,
  n % 16) because the flattening is row-major, and the band holding column c selects the table.
-/
import proofs.«165813_j41308995453355_2_alg».proof.Proof.Gen.ReferenceIdeal.Read
import proofs.«165813_j41308995453355_2_alg».proof.Proof.PosSpec
import Idealize.ShloMosaic.Lib.Pipeline.Value
import Idealize.ShloMosaic.Lib.ValueIdx

noncomputable section

namespace Cert.ReferenceIdeal.RefValue

open Cert.ReferenceIdeal Cert.ReferenceIdeal.Read Idealize.ShloMosaic Idealize.ShloMosaic.ValueIdx Cert.PosTable

variable {α : Type}

/-- The four bands joined along the last axis, read at a lattice point and a column: the band holding the column, at
    the column less the widths of the bands before it. -/
theorem bands_apply (y1 y2 y3 : S16x16x16x341.Idx → α) (y4 : S16x16x16x1.Idx → α)
    (h : Shape.Concatenates [S16x16x16x341, S16x16x16x341, S16x16x16x341, S16x16x16x1] S16x16x16x1024 3)
    (d h' w : Fin 16) (c : Fin 1024) :
    concatenate S16x16x16x1024 3 [⟨S16x16x16x341, y1⟩, ⟨S16x16x16x341, y2⟩, ⟨S16x16x16x341, y3⟩, ⟨S16x16x16x1, y4⟩] h
        (ix4 d h' w c)
      = if h1 : c.val < 341 then y1 (ix4 d h' w (⟨c.val, h1⟩ : Fin 341))
        else if h2 : c.val < 682 then y2 (ix4 d h' w (⟨c.val - 341, by omega⟩ : Fin 341))
        else if h3 : c.val < 1023 then y3 (ix4 d h' w (⟨c.val - 682, by omega⟩ : Fin 341))
        else y4 (ix4 d h' w (0 : Fin 1)) := by
  have hc := c.isLt
  by_cases h1 : c.val < 341
  · rw [dif_pos h1]
    refine concatenate_apply_piece (t := S16x16x16x1024) (3 : Fin 4) [⟨S16x16x16x341, y1⟩, ⟨S16x16x16x341, y2⟩, ⟨S16x16x16x341, y3⟩, ⟨S16x16x16x1, y4⟩] h (ix4 d h' w c) 0 (by show 0 < 4; omega) S16x16x16x341 y1 rfl rfl 0 rfl
      (ix4 d h' w (⟨c.val, h1⟩ : Fin 341)) (fun b => ?_) ?_
    · match b with
      | ⟨0, _⟩ => exact fun _ => rfl
      | ⟨1, _⟩ => exact fun _ => rfl
      | ⟨2, _⟩ => exact fun _ => rfl
      | ⟨3, _⟩ => exact fun hne => absurd rfl hne
    · show 0 + c.val = c.val; omega
  · rw [dif_neg h1]
    by_cases h2 : c.val < 682
    · rw [dif_pos h2]
      refine concatenate_apply_piece (t := S16x16x16x1024) (3 : Fin 4) [⟨S16x16x16x341, y1⟩, ⟨S16x16x16x341, y2⟩, ⟨S16x16x16x341, y3⟩, ⟨S16x16x16x1, y4⟩] h (ix4 d h' w c) 1 (by show 1 < 4; omega) S16x16x16x341 y2 rfl rfl 341 rfl
        (ix4 d h' w (⟨c.val - 341, by omega⟩ : Fin 341)) (fun b => ?_) ?_
      · match b with
        | ⟨0, _⟩ => exact fun _ => rfl
        | ⟨1, _⟩ => exact fun _ => rfl
        | ⟨2, _⟩ => exact fun _ => rfl
        | ⟨3, _⟩ => exact fun hne => absurd rfl hne
      · show 341 + (c.val - 341) = c.val; omega
    · rw [dif_neg h2]
      by_cases h3 : c.val < 1023
      · rw [dif_pos h3]
        refine concatenate_apply_piece (t := S16x16x16x1024) (3 : Fin 4) [⟨S16x16x16x341, y1⟩, ⟨S16x16x16x341, y2⟩, ⟨S16x16x16x341, y3⟩, ⟨S16x16x16x1, y4⟩] h (ix4 d h' w c) 2 (by show 2 < 4; omega) S16x16x16x341 y3 rfl rfl 682 rfl
          (ix4 d h' w (⟨c.val - 682, by omega⟩ : Fin 341)) (fun b => ?_) ?_
        · match b with
          | ⟨0, _⟩ => exact fun _ => rfl
          | ⟨1, _⟩ => exact fun _ => rfl
          | ⟨2, _⟩ => exact fun _ => rfl
          | ⟨3, _⟩ => exact fun hne => absurd rfl hne
        · show 682 + (c.val - 682) = c.val; omega
      · rw [dif_neg h3]
        refine concatenate_apply_piece (t := S16x16x16x1024) (3 : Fin 4) [⟨S16x16x16x341, y1⟩, ⟨S16x16x16x341, y2⟩, ⟨S16x16x16x341, y3⟩, ⟨S16x16x16x1, y4⟩] h (ix4 d h' w c) 3 (by show 3 < 4; omega) S16x16x16x1 y4 rfl rfl 1023 rfl
          (ix4 d h' w (0 : Fin 1)) (fun b => ?_) ?_
        · match b with
          | ⟨0, _⟩ => exact fun _ => rfl
          | ⟨1, _⟩ => exact fun _ => rfl
          | ⟨2, _⟩ => exact fun _ => rfl
          | ⟨3, _⟩ => exact fun hne => absurd rfl hne
        · show 1023 + 0 = c.val; omega

variable {F : FTy → Type} [FloatOps F]

/-- Row n of the flattened lattice is the lattice point (n / 256, n / 16 % 16, n % 16). -/
theorem flat_idx (n : Fin 4096) (c : Fin 1024) :
    idx_main_v7 (ix2 n c) = ix4 (⟨n.val / 256, by have := n.isLt; omega⟩ : Fin 16) (⟨n.val / 16 % 16, by omega⟩ : Fin 16)
      (⟨n.val % 16, by omega⟩ : Fin 16) c := by
  have hn := n.isLt
  have hc := c.isLt
  funext a
  apply Fin.ext
  match a with
  | ⟨0, _⟩ => show (n.val * 1024 + c.val) / 262144 = n.val / 256; omega
  | ⟨1, _⟩ => show (n.val * 1024 + c.val) / 16384 % 16 = n.val / 16 % 16; omega
  | ⟨2, _⟩ => show (n.val * 1024 + c.val) / 1024 % 16 = n.val % 16; omega
  | ⟨3, _⟩ => show (n.val * 1024 + c.val) % 1024 = c.val; omega

/-- The depth table broadcast over the lattice, read at a point. -/
theorem depth_apply (x1 : (⟨S16x341, .f32⟩ : BufTy).Contents (Elt F)) (d h w : Fin 16) (k : Fin 341) :
    val_main_v1 (F := F) x1 (ix4 d h w k) = x1 (ix2 d k) := by
  rw [val_main_v1_apply, val_main_v0_apply]
  exact congrArg x1 (funext fun a => Fin.ext (by match a with | ⟨0, _⟩ => rfl | ⟨1, _⟩ => rfl))

/-- The height table broadcast over the lattice, read at a point. -/
theorem height_apply (x2 : (⟨S16x341, .f32⟩ : BufTy).Contents (Elt F)) (d h w : Fin 16) (k : Fin 341) :
    val_main_v3 (F := F) x2 (ix4 d h w k) = x2 (ix2 h k) := by
  rw [val_main_v3_apply, val_main_v2_apply]
  exact congrArg x2 (funext fun a => Fin.ext (by match a with | ⟨0, _⟩ => rfl | ⟨1, _⟩ => rfl))

/-- The width table broadcast over the lattice, read at a point. -/
theorem width_apply (x3 : (⟨S16x341, .f32⟩ : BufTy).Contents (Elt F)) (d h w : Fin 16) (k : Fin 341) :
    val_main_v5 (F := F) x3 (ix4 d h w k) = x3 (ix2 w k) := by
  rw [val_main_v5_apply, val_main_v4_apply]
  exact congrArg x3 (funext fun a => Fin.ext (by match a with | ⟨0, _⟩ => rfl | ⟨1, _⟩ => rfl))

/-- The reference's result is the positional table of its four arguments. -/
theorem ref_eq (x1 x2 x3 : (⟨S16x341, .f32⟩ : BufTy).Contents (Elt F)) (x4 : (⟨S16x16x16x1, .f32⟩ : BufTy).Contents (Elt F)) :
    val_main_v9 (F := F) x1 x2 x3 x4 = posTable x1 x2 x3 x4 := by
  funext j
  obtain ⟨b, n, c, rfl⟩ : ∃ (b : Fin 8) (n : Fin 4096) (c : Fin 1024), j = ix3 b n c := ⟨j 0, j 1, j 2, eq_ix3 j⟩
  rw [posTable_apply, val_main_v9_apply, val_main_v8_apply, val_main_v7_apply]
  have e : idx_main_v8 (idx_main_v9 (ix3 b n c)) = ix2 n c :=
    funext fun a => Fin.ext (by match a with | ⟨0, _⟩ => rfl | ⟨1, _⟩ => rfl)
  rw [e, flat_idx]
  unfold val_main_v6
  rw [bands_apply]
  unfold posRow
  simp only [depth_apply, height_apply, width_apply]

end Cert.ReferenceIdeal.RefValue

end
-- ==== Proof.lean ====
/-
  A three-dimensional positional encoding: the 4096 positions of a 16 x 16 x 16 lattice, each encoded in 1024 columns
  as the row of a depth table, the row of a height table, the row of a width table (341 columns each) and one extra
  entry of its own, the same for every one of the 8 batch entries.

  The kernel builds the encoding of 2048 positions at a time in a scratch buffer, at the first of the 8 grid points
  that share the block, and every grid point copies the scratch buffer to its output block. The reference broadcasts
  the three tables over the lattice, joins them with the extra entries, flattens the lattice and repeats the result
  over the batch. Neither does any arithmetic on an entry: both results are the same re-arrangement of the argument
  arrays (PosSpec: `posTable`), on any values, so the finiteness of the inputs is never used. The kernel's side is
  KernelTile (what the body builds) and KernelRun (the induction along the grid and the tiling of the result array),
  the reference's side is RefSide.
-/
import proofs.«165813_j41308995453355_2_alg».proof.Defs
import proofs.«165813_j41308995453355_2_alg».proof.Proof.Gen.Kernel
import proofs.«165813_j41308995453355_2_alg».proof.Proof.Gen.Kernel.Skeleton
import proofs.«165813_j41308995453355_2_alg».proof.Proof.Gen.Kernel.Launch
import proofs.«165813_j41308995453355_2_alg».proof.Proof.Gen.Kernel.Points
import proofs.«165813_j41308995453355_2_alg».proof.Proof.Gen.Kernel.Frame
import proofs.«165813_j41308995453355_2_alg».proof.Proof.Gen.KernelIdeal
import proofs.«165813_j41308995453355_2_alg».proof.Proof.Gen.KernelIdeal.Skeleton
import proofs.«165813_j41308995453355_2_alg».proof.Proof.Gen.KernelIdeal.Launch
import proofs.«165813_j41308995453355_2_alg».proof.Proof.Gen.KernelIdeal.Points
import proofs.«165813_j41308995453355_2_alg».proof.Proof.Gen.KernelIdeal.Frame
import proofs.«165813_j41308995453355_2_alg».proof.Proof.Gen.ReferenceIdeal
import proofs.«165813_j41308995453355_2_alg».proof.Proof.Gen.Pre_finite_inputs
import proofs.«165813_j41308995453355_2_alg».proof.Proof.Gen.KernelIdeal.Value
import proofs.«165813_j41308995453355_2_alg».proof.Proof.Gen.ReferenceIdeal.Run
import proofs.«165813_j41308995453355_2_alg».proof.Proof.Gen.ReferenceIdeal.Read
import proofs.«165813_j41308995453355_2_alg».proof.Proof.KernelRun
import proofs.«165813_j41308995453355_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the positional table of their argument arrays, and the argument arrays agree. -/
theorem algebraic : Cert.algebraic_KernelIdeal_ReferenceIdeal := by
  intro m ρ m' ρ' _ hagree
  refine ⟨fun c => Cert.KernelIdeal.RunValue.result m c, Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
